-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x1x512 : Shape := ⟨4, ![4, 256, 1, 512]⟩
abbrev S4x1x64x512 : Shape := ⟨4, ![4, 1, 64, 512]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S4x256x1x512 : S_.BroadcastsInDim S4x256x1x512 (![] : Fin 0 → Fin S4x256x1x512.rank)
  reducesTo_S4x256x1x512_S_d0_1_2_3 : S4x256x1x512.ReducesTo [0, 1, 2, 3] S_
  h_S_ : 0 < S_.numel
  bcast_S_S4x1x64x512 : S_.BroadcastsInDim S4x1x64x512 (![] : Fin 0 → Fin S4x1x64x512.rank)
  reducesTo_S4x1x64x512_S_d0_1_2_3 : S4x1x64x512.ReducesTo [0, 1, 2, 3] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S512x512 .f32) (main_arg5 : FVec F S1024x512 .f32) (main_arg6 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x256x1x512 .f32) (main_arg1 : FVec F S4x1x64x512 .f32) (main_arg2 : FVec F S512x512 .f32) (main_arg3 : FVec F S512 .f32) (main_arg4 : FVec F S512x512 .f32) (main_arg5 : FVec F S1024x512 .f32) (main_arg6 : FVec F S1024 .f32) : IVec S_ 1 :=
  let main_v0 : FVec F S4x256x1x512 .f32 := Host.absf main_arg0
  let main_cst : FVec F S_ .f32 := constant S_ .f32 0x7F800000#32
  let main_v1 : FVec F S4x256x1x512 .f32 := broadcastInDim S4x256x1x512 ![] bcast_S_S4x256x1x512 main_cst
  let main_v2 : IVec S4x256x1x512 1 := cmpf .olt main_v0 main_v1
  let main_c : IVec S_ 1 := constantI S_ 1 1#1
  let main_v3 : IVec S_ 1 := (fun x v => Host.reduce IntOp.andi x v reducesTo_S4x256x1x512_S_d0_1_2_3 h_S_) main_v2 main_c
  let main_v4 : FVec F S4x1x64x512 .f32 := Host.absf main_arg1
  let main_cst_0 : FVec F S_ .f32 := constant S_ .f32 0x7F800000#32
  let main_v5 : FVec F S4x1x64x512 .f32 := broadcastInDim S4x1x64x512 ![] bcast_S_S4x1x64x512 main_cst_0
  let main_v6 : IVec S4x1x64x512 1 := cmpf .olt main_v4 main_v5
  let main_c_1 : IVec S_ 1 := constantI S_ 1 1#1
  let main_v7 : IVec S_ 1 := (fun x v => Host.reduce IntOp.andi x v reducesTo_S4x1x64x512_S_d0_1_2_3 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_v13 main_v16
-- ==== Kernel.lean ====
abbrev S4x256x1x512 : Shape := ⟨4, ![4, 256, 1, 512]⟩
abbrev S4x1x64x512 : Shape := ⟨4, ![4, 1, 64, 512]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S4x256x64x1024 : Shape := ⟨4, ![4, 256, 64, 1024]⟩
abbrev S1x32x1x512 : Shape := ⟨4, ![1, 32, 1, 512]⟩
abbrev S1x1x64x512 : Shape := ⟨4, ![1, 1, 64, 512]⟩
abbrev S1x32x64x1024 : Shape := ⟨4, ![1, 32, 64, 1024]⟩
abbrev S32x512 : Shape := ⟨2, ![32, 512]⟩
abbrev S64x512 : Shape := ⟨2, ![64, 512]⟩
abbrev S1x512 : Shape := ⟨2, ![1, 512]⟩
abbrev S32x1x512 : Shape := ⟨3, ![32, 1, 512]⟩
abbrev S1x64x512 : Shape := ⟨3, ![1, 64, 512]⟩
abbrev S32x64x512 : Shape := ⟨3, ![32, 64, 512]⟩
abbrev S2048x512 : Shape := ⟨2, ![2048, 512]⟩
abbrev S512x1024 : Shape := ⟨2, ![512, 1024]⟩
abbrev S2048x1024 : Shape := ⟨2, ![2048, 1024]⟩
abbrev S1x1024 : Shape := ⟨2, ![1, 1024]⟩
abbrev S32x64x1024 : Shape := ⟨3, ![32, 64, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4x256x1x512, .f32⟩
  | .hbm, ⟨1, _⟩ => ⟨S4x1x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S1024x512, .f32⟩
  | .hbm, ⟨6, _⟩ => ⟨S1024, .f32⟩
  | .hbm, ⟨7, _⟩ => ⟨S4x256x64x1024, .f32⟩
  | .local _ .vmem, ⟨0, _⟩ => ⟨S1x32x1x512, .f32⟩
  | .local _ .vmem, ⟨1, _⟩ => ⟨S1x32x1x512, .f32⟩
  | .local _ .vmem, ⟨2, _⟩ => ⟨S1x1x64x512, .f32⟩
  | .local _ .vmem, ⟨3, _⟩ => ⟨S1x1x64x512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S1024x512, .f32⟩
  | .local _ .vmem, ⟨8, _⟩ => ⟨S1024, .f32⟩
  | .local _ .vmem, ⟨9, _⟩ => ⟨S1x32x64x1024, .f32⟩
  | .local _ .vmem, ⟨10, _⟩ => ⟨S1x32x64x1024, .f32⟩
  | _, _ => ⟨S4x256x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x32x1x512_S1x32x1x512_0_0_0_0 : ∀ a, (![0, 0, 0, 0] : Fin 4 → Nat) a + S1x32x1x512.size a ≤ S1x32x1x512.size a
  h_S1x32x1x512 : 0 < S1x32x1x512.numel
  shapeCasts_S1x32x1x512_S32x512 : S1x32x1x512.ShapeCasts S32x512
  inb_S1x1x64x512_S1x1x64x512_0_0_0_0 : ∀ a, (![0, 0, 0, 0] : Fin 4 → Nat) a + S1x1x64x512.size a ≤ S1x1x64x512.size a
  h_S1x1x64x512 : 0 < S1x1x64x512.numel
  shapeCasts_S1x1x64x512_S64x512 : S1x1x64x512.ShapeCasts S64x512
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  inb_S512_S512_0 : ∀ a, (![0] : Fin 1 → Nat) a + S512.size a ≤ S512.size a
  h_S512 : 0 < S512.numel
  shapeCasts_S512_S1x512 : S512.ShapeCasts S1x512
  broadcasts_S1x512_S32x512 : S1x512.Broadcasts S32x512
  shapeCasts_S32x512_S32x1x512 : S32x512.ShapeCasts S32x1x512
  shapeCasts_S64x512_S1x64x512 : S64x512.ShapeCasts S1x64x512
  broadcasts_S32x1x512_S32x64x512 : S32x1x512.Broadcasts S32x64x512
  broadcasts_S1x64x512_S32x64x512 : S1x64x512.Broadcasts S32x64x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S32x64x512_S2048x512 : S32x64x512.ShapeCasts S2048x512
  transposes_S1024x512_p1_0_S512x1024 : S1024x512.Transposes [1, 0] S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  shapeCasts_S2048x1024_S32x64x1024 : S2048x1024.ShapeCasts S32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  shapeCasts_S1x32x64x1024_S32x64x1024 : S1x32x64x1024.ShapeCasts S32x64x1024
  shapeCasts_S32x64x1024_S1x32x64x1024 : S32x64x1024.ShapeCasts S1x32x64x1024
  dot_S32x512_S512x512_S32x512_1_0_0_1_n_n_wf : DotDims.WF S32x512 S512x512 S32x512 [1] [0] [0] [1] [] []
  dot_S64x512_S512x512_S64x512_1_0_0_1_n_n_wf : DotDims.WF S64x512 S512x512 S64x512 [1] [0] [0] [1] [] []
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x1x512.size a ≤ S4x256x1x512.size a
  hwx0_0 : ∀ i : grid0.Coords, EltTy.bits .f32 = 32 ∨ (Rect.block (s := S4x256x1x512) S1x32x1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x512.size a ≤ S4x1x64x512.size a
  hwx0_1 : ∀ i : grid0.Coords, EltTy.bits .f32 = 32 ∨ (Rect.block (s := S4x1x64x512) S1x1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .f32 = 32 ∨ (Rect.block (s := S1024x512) S1024x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x64x1024.size a ≤ S4x256x64x1024.size a
  hwx0_7 : ∀ i : grid0.Coords, EltTy.bits .f32 = 32 ∨ (Rect.block (s := S4x256x64x1024) S1x32x64x1024.size (cc0_transform_7 i) (hinb0_7 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S1x32x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x32x64x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x256x1x512 : Shape := ⟨4, ![4, 256, 1, 512]⟩
abbrev S4x1x64x512 : Shape := ⟨4, ![4, 1, 64, 512]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S1x1x1x512 : Shape := ⟨4, ![1, 1, 1, 512]⟩
abbrev S4x256x64x512 : Shape := ⟨4, ![4, 256, 64, 512]⟩
abbrev S4x256x64x1024 : Shape := ⟨4, ![4, 256, 64, 1024]⟩
abbrev S1x1x1x1024 : Shape := ⟨4, ![1, 1, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x256x1x512, .f32⟩
  | .hbm, ⟨1, _⟩ => ⟨S4x1x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S1024x512, .f32⟩
  | .hbm, ⟨6, _⟩ => ⟨S1024, .f32⟩
  | .hbm, ⟨7, _⟩ => ⟨S4x256x1x512, .f32⟩
  | .hbm, ⟨8, _⟩ => ⟨S1x1x1x512, .f32⟩
  | .hbm, ⟨9, _⟩ => ⟨S4x256x1x512, .f32⟩
  | .hbm, ⟨10, _⟩ => ⟨S4x256x1x512, .f32⟩
  | .hbm, ⟨11, _⟩ => ⟨S4x1x64x512, .f32⟩
  | .hbm, ⟨12, _⟩ => ⟨S4x256x64x512, .f32⟩
  | .hbm, ⟨13, _⟩ => ⟨S4x256x64x512, .f32⟩
  | .hbm, ⟨14, _⟩ => ⟨S4x256x64x512, .f32⟩
  | .hbm, ⟨15, _⟩ => ⟨S4x256x64x512, .f32⟩
  | .hbm, ⟨16, _⟩ => ⟨S4x256x64x1024, .f32⟩
  | .hbm, ⟨17, _⟩ => ⟨S1x1x1x1024, .f32⟩
  | .hbm, ⟨18, _⟩ => ⟨S4x256x64x1024, .f32⟩
  | .hbm, ⟨19, _⟩ => ⟨S4x256x64x1024, .f32⟩
  | _, _ => ⟨S4x256x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S512_S1x1x1x512_3 : S512.BroadcastsInDim S1x1x1x512 (![3] : Fin 1 → Fin S1x1x1x512.rank)
  bcast_S1x1x1x512_S4x256x1x512_0_1_2_3 : S1x1x1x512.BroadcastsInDim S4x256x1x512 (![0, 1, 2, 3] : Fin 4 → Fin S4x256x1x512.rank)
  bcast_S4x256x1x512_S4x256x64x512_0_1_2_3 : S4x256x1x512.BroadcastsInDim S4x256x64x512 (![0, 1, 2, 3] : Fin 4 → Fin S4x256x64x512.rank)
  bcast_S4x1x64x512_S4x256x64x512_0_1_2_3 : S4x1x64x512.BroadcastsInDim S4x256x64x512 (![0, 1, 2, 3] : Fin 4 → Fin S4x256x64x512.rank)
  bcast_S1024_S1x1x1x1024_3 : S1024.BroadcastsInDim S1x1x1x1024 (![3] : Fin 1 → Fin S1x1x1x1024.rank)
  bcast_S1x1x1x1024_S4x256x64x1024_0_1_2_3 : S1x1x1x1024.BroadcastsInDim S4x256x64x1024 (![0, 1, 2, 3] : Fin 4 → Fin S4x256x64x1024.rank)
  dot_S4x256x1x512_S512x512_S4x256x1x512_3_1_012_0_n_n_wf : DotDims.WF S4x256x1x512 S512x512 S4x256x1x512 [3] [1] [0, 1, 2] [0] [] []
  dot_S4x1x64x512_S512x512_S4x1x64x512_3_1_012_0_n_n_wf : DotDims.WF S4x1x64x512 S512x512 S4x1x64x512 [3] [1] [0, 1, 2] [0] [] []
  dot_S4x256x64x512_S1024x512_S4x256x64x1024_3_1_012_0_n_n_wf : DotDims.WF S4x256x64x512 S1024x512 S4x256x64x1024 [3] [1] [0, 1, 2] [0] [] []

variable [Facts₀]

def dot_S4x256x1x512_S512x512_S4x256x1x512_3_1_012_0_n_n : DotDims S4x256x1x512 S512x512 S4x256x1x512 where
  lhsContracting := [3]
  rhsContracting := [1]
  lhsNonContracting := [0, 1, 2]
  rhsNonContracting := [0]
  lhsBatch := []
  rhsBatch := []
  wf := dot_S4x256x1x512_S512x512_S4x256x1x512_3_1_012_0_n_n_wf
def dot_S4x1x64x512_S512x512_S4x1x64x512_3_1_012_0_n_n : DotDims S4x1x64x512 S512x512 S4x1x64x512 where
  lhsContracting := [3]
  rhsContracting := [1]
  lhsNonContracting := [0, 1, 2]
  rhsNonContracting := [0]
  lhsBatch := []
  rhsBatch := []
  wf := dot_S4x1x64x512_S512x512_S4x1x64x512_3_1_012_0_n_n_wf
def dot_S4x256x64x512_S1024x512_S4x256x64x1024_3_1_012_0_n_n : DotDims S4x256x64x512 S1024x512 S4x256x64x1024 where
  lhsContracting := [3]
  rhsContracting := [1]
  lhsNonContracting := [0, 1, 2]
  rhsNonContracting := [0]
  lhsBatch := []
  rhsBatch := []
  wf := dot_S4x256x64x512_S1024x512_S4x256x64x1024_3_1_012_0_n_n_wf

class Facts : Prop extends Facts₀ where

variable [Facts]
-- ==== Proof.JointEntry.lean ====
/-
  One entry of the joint network, and the whole result array over it.

  For an encoder row e and a decoder row g (both of length 512), the entry is
      sum over j of  tanh ((sum over d of e d * We j d) + be j + (sum over d of g d * Wd j d)) * wo j,  plus bo,
  where We, Wd are the two 512 x 512 projection matrices read as (output feature j, input feature d), be the
  encoder projection's bias, wo the row of the output matrix that belongs to the vocabulary entry asked for, and
  bo that entry's bias. Everything is over the extended reals; nothing here needs a finite argument: the two
  programs compared in this directory perform these sums with the same terms in the same order.

  The result array at (b, t, u, v) is that entry for row (b, t) of the encoder output, row (b, u) of the decoder
  output and row v of the output matrix.
-/
import Idealize.ShloMosaic.PureOps.Ideal
import Idealize.ShloMosaic.Lib.ValueIdx

noncomputable section

namespace Cert.Joint

open Idealize.ShloMosaic Idealize.ShloMosaic.ValueIdx

/-- One entry of the joint network from an encoder row `e`, a decoder row `g`, the two projections, the
    encoder bias, one row `wo` of the output matrix and that row's bias `bo`. -/
def entry (e g : Fin 512 → EReal) (We : Fin 512 → Fin 512 → EReal) (be : Fin 512 → EReal)
    (Wd : Fin 512 → Fin 512 → EReal) (wo : Fin 512 → EReal) (bo : EReal) : EReal :=
  (∑ j : Fin 512, Ideal.tanh (((∑ d : Fin 512, e d * We j d) + be j) + ∑ d : Fin 512, g d * Wd j d) * wo j) + bo

/-- The whole result: at (b, t, u, v) the entry of encoder row (b, t), decoder row (b, u), output row v. -/
def array (enc : (⟨4, ![4, 256, 1, 512]⟩ : Shape).Idx → EReal) (dec : (⟨4, ![4, 1, 64, 512]⟩ : Shape).Idx → EReal)
    (We : (⟨2, ![512, 512]⟩ : Shape).Idx → EReal) (be : (⟨1, ![512]⟩ : Shape).Idx → EReal)
    (Wd : (⟨2, ![512, 512]⟩ : Shape).Idx → EReal) (Wo : (⟨2, ![1024, 512]⟩ : Shape).Idx → EReal)
    (bo : (⟨1, ![1024]⟩ : Shape).Idx → EReal) : (⟨4, ![4, 256, 64, 1024]⟩ : Shape).Idx → EReal :=
  fun i => entry (fun d => enc (ix4 (i 0) (i 1) (0 : Fin 1) d)) (fun d => dec (ix4 (i 0) (0 : Fin 1) (i 2) d))
    (fun j d => We (ix2 j d)) (fun j => be (ix1 j)) (fun j d => Wd (ix2 j d)) (fun j => Wo (ix2 (i 3) j)) (bo (ix1 (i 3)))

end Cert.Joint

end
-- ==== Proof.ReferenceValue.lean ====
/-
  The reference computes the joint network stage by stage: the encoder projection with its bias, the decoder
  projection, their sum broadcast over (t, u), tanh, the output product, the output bias. Read at an index
  (b, t, u, v), each stage picks one element of each operand, and the three contractions are sums over the 512
  features; put together they are the entry of `Cert.Joint.array` at that index, term for term.
-/
import proofs.«145594_j37503654429039_1_alg».proof.Proof.Gen.ReferenceIdeal.Read
import proofs.«145594_j37503654429039_1_alg».proof.Proof.JointEntry

noncomputable section

namespace Cert.ReferenceIdeal.JointValue

open Cert.ReferenceIdeal Cert.ReferenceIdeal.Read Idealize.ShloMosaic Idealize.ShloMosaic.ValueIdx

/-- The reference's last stage, as a function of the seven arguments, is the joint network's array. -/
theorem stage_eq_array (x0 : (⟨S4x256x1x512, .f32⟩ : BufTy).Contents (Elt Ideal)) (x1 : (⟨S4x1x64x512, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S1024x512, .f32⟩ : BufTy).Contents (Elt Ideal))
    (x6 : (⟨S1024, .f32⟩ : BufTy).Contents (Elt Ideal)) :
    val_main_v12 (F := Ideal) x0 x1 x2 x3 x4 x5 x6 = Cert.Joint.array x0 x1 x2 x3 x4 x5 x6 := by
  funext i
  -- the index each stage reads its operands at, written by coordinates
  have eEnc : ∀ k d : Fin 512, lidx_main_v0 (idx_main_v5 (lidx_main_v9 i k)) d = ix4 (i 0) (i 1) (0 : Fin 1) d := fun k d =>
    funext fun a => Fin.ext (by match a with | ⟨0, _⟩ => rfl | ⟨1, _⟩ => rfl | ⟨2, _⟩ => rfl | ⟨3, _⟩ => rfl)
  have eWe : ∀ k d : Fin 512, ridx_main_v0 (idx_main_v5 (lidx_main_v9 i k)) d = ix2 k d := fun k d =>
    funext fun a => Fin.ext (by match a with | ⟨0, _⟩ => rfl | ⟨1, _⟩ => rfl)
  have eBe : ∀ k : Fin 512, idx_main_v1 (idx_main_v2 (idx_main_v5 (lidx_main_v9 i k))) = ix1 k := fun k =>
    funext fun a => Fin.ext (by match a with | ⟨0, _⟩ => rfl)
  have eDec : ∀ k d : Fin 512, lidx_main_v4 (idx_main_v6 (lidx_main_v9 i k)) d = ix4 (i 0) (0 : Fin 1) (i 2) d := fun k d =>
    funext fun a => Fin.ext (by match a with | ⟨0, _⟩ => rfl | ⟨1, _⟩ => rfl | ⟨2, _⟩ => rfl | ⟨3, _⟩ => rfl)
  have eWd : ∀ k d : Fin 512, ridx_main_v4 (idx_main_v6 (lidx_main_v9 i k)) d = ix2 k d := fun k d =>
    funext fun a => Fin.ext (by match a with | ⟨0, _⟩ => rfl | ⟨1, _⟩ => rfl)
  have eWo : ∀ k : Fin 512, ridx_main_v9 i k = ix2 (i 3) k := fun k =>
    funext fun a => Fin.ext (by match a with | ⟨0, _⟩ => rfl | ⟨1, _⟩ => rfl)
  have eBo : idx_main_v10 (idx_main_v11 i) = ix1 (i 3) :=
    funext fun a => Fin.ext (by match a with | ⟨0, _⟩ => rfl)
  rw [val_main_v12_apply, val_main_v9_apply, val_main_v11_apply, val_main_v10_apply]
  simp only [val_main_v8_apply, val_main_v7_apply, val_main_v5_apply, val_main_v6_apply, val_main_v3_apply,
    val_main_v4_apply, val_main_v0_apply, val_main_v2_apply, val_main_v1_apply,
    eEnc, eWe, eBe, eDec, eWd, eWo, eBo, Ideal.addf_def, Ideal.hostUnary_tanh_def]
  rfl

end Cert.ReferenceIdeal.JointValue

end
-- ==== Proof.KernelSums.lean ====
/-
  The kernel's three matrix products, each into a zero accumulator, read at an entry (r, c) over the extended
  reals: the sum over the 512 contracted features k of the left operand at (r, k) times the right operand at
  (k, c). The product's own bookkeeping names the operands' positions through its dimension record; here they
  are spelt by coordinates once, for each of the three records the kernel uses (32 x 512 by 512 x 512 for the
  encoder projection, 64 x 512 by 512 x 512 for the decoder projection, 2048 x 512 by 512 x 1024 for the output).
-/
import proofs.«145594_j37503654429039_1_alg».proof.Proof.Gen.KernelIdeal
import Idealize.ShloMosaic.Lib.ValueIdx
import Idealize.ShloMosaic.PureOps.Ideal.Laws

noncomputable section

namespace Cert.KernelIdeal.JointValue

open Cert.KernelIdeal Cert.KernelIdeal.Gen Idealize.ShloMosaic Idealize.ShloMosaic.ValueIdx

variable {φ₁ φ₂ : FTy}

/-- The encoder projection's product: row r of the left operand does not depend on the contracted feature, nor column c of the right. -/
theorem encDot_lhs0 (i : S32x512.Idx) (q : dot_S32x512_S512x512_S32x512_1_0_0_1_n_n.contr.Idx) : (dot_S32x512_S512x512_S32x512_1_0_0_1_n_n.lhsIdx i q 0).val = (i 0).val := by
  unfold DotDims.lhsIdx
  rw [dif_neg (show ¬(0 : Fin S32x512.rank) ∈ dot_S32x512_S512x512_S32x512_1_0_0_1_n_n.lhsBatch by decide), dif_pos (show (0 : Fin S32x512.rank) ∈ dot_S32x512_S512x512_S32x512_1_0_0_1_n_n.lhsNonContracting by decide)]
  rfl
theorem encDot_rhs1 (i : S32x512.Idx) (q : dot_S32x512_S512x512_S32x512_1_0_0_1_n_n.contr.Idx) : (dot_S32x512_S512x512_S32x512_1_0_0_1_n_n.rhsIdx i q 1).val = (i 1).val := by
  unfold DotDims.rhsIdx
  rw [dif_neg (show ¬(1 : Fin S512x512.rank) ∈ dot_S32x512_S512x512_S32x512_1_0_0_1_n_n.rhsBatch by decide), dif_pos (show (1 : Fin S512x512.rank) ∈ dot_S32x512_S512x512_S32x512_1_0_0_1_n_n.rhsNonContracting by decide)]
  rfl
theorem encDot_apply (L : FVec Ideal S32x512 φ₁) (R : FVec Ideal S512x512 φ₂) (r : Fin 32) (c : Fin 512) :
    matmul dot_S32x512_S512x512_S32x512_1_0_0_1_n_n none L R (constant S32x512 .f32 0x00000000#32) (ix2 r c) = ∑ k : Fin 512, L (ix2 r k) * R (ix2 k c) := by
  refine (Ideal.matmul_constant_zero_apply dot_S32x512_S512x512_S32x512_1_0_0_1_n_n none L R (ix2 r c)).trans ?_
  rw [← Equiv.sum_comp (contrEquiv1 dot_S32x512_S512x512_S32x512_1_0_0_1_n_n 512 rfl rfl).symm]
  refine Finset.sum_congr rfl fun k _ => ?_
  have hk := contrEquiv1_symm_val dot_S32x512_S512x512_S32x512_1_0_0_1_n_n 512 rfl rfl k
  have el : dot_S32x512_S512x512_S32x512_1_0_0_1_n_n.lhsIdx (ix2 r c) ((contrEquiv1 dot_S32x512_S512x512_S32x512_1_0_0_1_n_n 512 rfl rfl).symm k) = ix2 r k := funext fun a => Fin.ext (by
    match a with
    | ⟨0, _⟩ => exact encDot_lhs0 _ _
    | ⟨1, _⟩ => exact (dot_S32x512_S512x512_S32x512_1_0_0_1_n_n.lhsIdx_val_of_single rfl _ _).trans hk)
  have er : dot_S32x512_S512x512_S32x512_1_0_0_1_n_n.rhsIdx (ix2 r c) ((contrEquiv1 dot_S32x512_S512x512_S32x512_1_0_0_1_n_n 512 rfl rfl).symm k) = ix2 k c := funext fun a => Fin.ext (by
    match a with
    | ⟨0, _⟩ => exact (dot_S32x512_S512x512_S32x512_1_0_0_1_n_n.rhsIdx_val_of_single rfl _ _).trans hk
    | ⟨1, _⟩ => exact encDot_rhs1 _ _)
  rw [el, er]

/-- The decoder projection's product, likewise. -/
theorem decDot_lhs0 (i : S64x512.Idx) (q : dot_S64x512_S512x512_S64x512_1_0_0_1_n_n.contr.Idx) : (dot_S64x512_S512x512_S64x512_1_0_0_1_n_n.lhsIdx i q 0).val = (i 0).val := by
  unfold DotDims.lhsIdx
  rw [dif_neg (show ¬(0 : Fin S64x512.rank) ∈ dot_S64x512_S512x512_S64x512_1_0_0_1_n_n.lhsBatch by decide), dif_pos (show (0 : Fin S64x512.rank) ∈ dot_S64x512_S512x512_S64x512_1_0_0_1_n_n.lhsNonContracting by decide)]
  rfl
theorem decDot_rhs1 (i : S64x512.Idx) (q : dot_S64x512_S512x512_S64x512_1_0_0_1_n_n.contr.Idx) : (dot_S64x512_S512x512_S64x512_1_0_0_1_n_n.rhsIdx i q 1).val = (i 1).val := by
  unfold DotDims.rhsIdx
  rw [dif_neg (show ¬(1 : Fin S512x512.rank) ∈ dot_S64x512_S512x512_S64x512_1_0_0_1_n_n.rhsBatch by decide), dif_pos (show (1 : Fin S512x512.rank) ∈ dot_S64x512_S512x512_S64x512_1_0_0_1_n_n.rhsNonContracting by decide)]
  rfl
theorem decDot_apply (L : FVec Ideal S64x512 φ₁) (R : FVec Ideal S512x512 φ₂) (r : Fin 64) (c : Fin 512) :
    matmul dot_S64x512_S512x512_S64x512_1_0_0_1_n_n none L R (constant S64x512 .f32 0x00000000#32) (ix2 r c) = ∑ k : Fin 512, L (ix2 r k) * R (ix2 k c) := by
  refine (Ideal.matmul_constant_zero_apply dot_S64x512_S512x512_S64x512_1_0_0_1_n_n none L R (ix2 r c)).trans ?_
  rw [← Equiv.sum_comp (contrEquiv1 dot_S64x512_S512x512_S64x512_1_0_0_1_n_n 512 rfl rfl).symm]
  refine Finset.sum_congr rfl fun k _ => ?_
  have hk := contrEquiv1_symm_val dot_S64x512_S512x512_S64x512_1_0_0_1_n_n 512 rfl rfl k
  have el : dot_S64x512_S512x512_S64x512_1_0_0_1_n_n.lhsIdx (ix2 r c) ((contrEquiv1 dot_S64x512_S512x512_S64x512_1_0_0_1_n_n 512 rfl rfl).symm k) = ix2 r k := funext fun a => Fin.ext (by
    match a with
    | ⟨0, _⟩ => exact decDot_lhs0 _ _
    | ⟨1, _⟩ => exact (dot_S64x512_S512x512_S64x512_1_0_0_1_n_n.lhsIdx_val_of_single rfl _ _).trans hk)
  have er : dot_S64x512_S512x512_S64x512_1_0_0_1_n_n.rhsIdx (ix2 r c) ((contrEquiv1 dot_S64x512_S512x512_S64x512_1_0_0_1_n_n 512 rfl rfl).symm k) = ix2 k c := funext fun a => Fin.ext (by
    match a with
    | ⟨0, _⟩ => exact (dot_S64x512_S512x512_S64x512_1_0_0_1_n_n.rhsIdx_val_of_single rfl _ _).trans hk
    | ⟨1, _⟩ => exact decDot_rhs1 _ _)
  rw [el, er]

/-- The output product, likewise. -/
theorem outDot_lhs0 (i : S2048x1024.Idx) (q : dot_S2048x512_S512x1024_S2048x1024_1_0_0_1_n_n.contr.Idx) : (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl
theorem outDot_rhs1 (i : S2048x1024.Idx) (q : dot_S2048x512_S512x1024_S2048x1024_1_0_0_1_n_n.contr.Idx) : (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl
theorem outDot_apply (L : FVec Ideal S2048x512 φ₁) (R : FVec Ideal S512x1024 φ₂) (r : Fin 2048) (c : Fin 1024) :
    matmul dot_S2048x512_S512x1024_S2048x1024_1_0_0_1_n_n none L R (constant S2048x1024 .f32 0x00000000#32) (ix2 r c) = ∑ k : Fin 512, L (ix2 r k) * R (ix2 k c) := by
  refine (Ideal.matmul_constant_zero_apply dot_S2048x512_S512x1024_S2048x1024_1_0_0_1_n_n none L R (ix2 r c)).trans ?_
  rw [← Equiv.sum_comp (contrEquiv1 dot_S2048x512_S512x1024_S2048x1024_1_0_0_1_n_n 512 rfl rfl).symm]
  refine Finset.sum_congr rfl fun k _ => ?_
  have hk := contrEquiv1_symm_val dot_S2048x512_S512x1024_S2048x1024_1_0_0_1_n_n 512 rfl rfl k
  have el : dot_S2048x512_S512x1024_S2048x1024_1_0_0_1_n_n.lhsIdx (ix2 r c) ((contrEquiv1 dot_S2048x512_S512x1024_S2048x1024_1_0_0_1_n_n 512 rfl rfl).symm k) = ix2 r k := funext fun a => Fin.ext (by
    match a with
    | ⟨0, _⟩ => exact outDot_lhs0 _ _
    | ⟨1, _⟩ => exact (dot_S2048x512_S512x1024_S2048x1024_1_0_0_1_n_n.lhsIdx_val_of_single rfl _ _).trans hk)
  have er : dot_S2048x512_S512x1024_S2048x1024_1_0_0_1_n_n.rhsIdx (ix2 r c) ((contrEquiv1 dot_S2048x512_S512x1024_S2048x1024_1_0_0_1_n_n 512 rfl rfl).symm k) = ix2 k c := funext fun a => Fin.ext (by
    match a with
    | ⟨0, _⟩ => exact (dot_S2048x512_S512x1024_S2048x1024_1_0_0_1_n_n.rhsIdx_val_of_single rfl _ _).trans hk
    | ⟨1, _⟩ => exact outDot_rhs1 _ _)
  rw [el, er]

end Cert.KernelIdeal.JointValue

end
-- ==== Proof.LibRelayout.lean ====
/-
  Re-laid arrays read at an index given by coordinates, for any extents: the shape casts and broadcasts that a
  projection of a [1, a, 1, b] or [1, 1, a, b] block to a matrix, a sum of an [a, 1, c] and a [1, b, c] array
  over [a, b, c], and the flattening of [a, b, c] to [a * b, c] (and back) go through.

  • `shapeCast_1a1b_ab_apply`, `shapeCast_11ab_ab_apply`: a block with unit axes cast to the matrix of its two
    real axes reads, at (i, j), the operand at (0, i, 0, j), respectively (0, 0, i, j).
  • `shapeCast_ab_a1b_apply`: a matrix cast to [a, 1, b] reads, at (i, z, j), the operand at (i, j).
  • `broadcastTo_a1c_abc_apply`, `broadcastTo_1bc_abc_apply`: an array with a unit middle (leading) axis broadcast
    along it reads, at (i, k, j), the operand at (i, 0, j), respectively (0, k, j).
  • `shapeCast_abc_nc_apply`, `shapeCast_nc_abc_apply`: [a, b, c] flattened to [n, c] with n = a * b, and back:
    row r = i * b + k of the flat array is row (i, k) of the other.
  Each is the library's general lemma for the operation with the row-major, or per-axis, arithmetic done.
-/
import Idealize.ShloMosaic.Lib.ValueLayout

namespace Cert.LibRelayout

open Idealize.ShloMosaic Idealize.ShloMosaic.ValueIdx

variable {α : Type}

/-- A `[1, a, 1, b]` array cast to `[a, b]` reads, at `(i, j)`, the operand at `(0, i, 0, j)`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    simp only [Nat.zero_mul, Nat.zero_add, Nat.mul_one, Nat.add_zero])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- An `[a, b]` array cast to `[a, 1, b]` reads, at `(i, z, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (z : Fin 1) (j : Fin b) :
    shapeCast ⟨3, ![a, 1, b]⟩ x h (ix3 i z j) = x (ix2 i j) :=
  shapeCast_apply x h _ _ (by
    have hz : z.val = 0 := by omega
    rw [Shape.rowMajor_val_three, Shape.rowMajor_val_two]
    show i.val * b + j.val = (i.val * 1 + z.val) * b + j.val
    rw [hz, Nat.mul_one, Nat.add_zero])

/-- An `[a, 1, c]` array broadcast to `[a, b, c]` reads, at `(i, k, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(i, k, j)`, the operand at `(0, k, j)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- An `[a, b, c]` array flattened to `[n, c]` (so `n = a * b`) reads, at row `r = i * b + k` and column `j`, the
    operand at `(i, k, j)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (k : Fin b) (j : Fin c) (r : Fin n)
    (hr : r.val = i.val * b + k.val) : shapeCast ⟨2, ![n, c]⟩ x h (ix2 r j) = x (ix3 i k j) :=
  shapeCast_apply x h _ _ (by
    rw [Shape.rowMajor_val_three, Shape.rowMajor_val_two]
    show (i.val * b + k.val) * c + j.val = r.val * c + j.val
    rw [hr])

/-- An `[n, c]` array cast to `[a, b, c]` (so `n = a * b`) reads, at `(i, k, j)`, the operand at row
    `r = i * b + k` and column `j`. -/
theorem shapeCast_nc_abc_apply {a b c n : ℕ} (x : (⟨2, ![n, c]⟩ : Shape).Idx → α)
    (h : (⟨2, ![n, c]⟩ : Shape).ShapeCasts ⟨3, ![a, b, c]⟩) (i : Fin a) (k : Fin b) (j : Fin c) (r : Fin n)
    (hr : r.val = i.val * b + k.val) : shapeCast ⟨3, ![a, b, c]⟩ x h (ix3 i k j) = x (ix2 r j) :=
  shapeCast_apply x h _ _ (by
    rw [Shape.rowMajor_val_two, Shape.rowMajor_val_three]
    show r.val * c + j.val = (i.val * b + k.val) * c + j.val
    rw [hr])

end Cert.LibRelayout
-- ==== Proof.PayloadEntry.lean ====
/-
  What one grid point's body stores, read at an entry (0, t, u, v) of its [1, 32, 64, 1024] block, from the seven
  blocks it loads: the joint network's entry for row t of the encoder block, row u of the decoder block and row v
  of the output matrix.

  The body projects the 32 encoder rows (a product with the transposed 512 x 512 matrix, plus the bias as a row
  broadcast), projects the 64 decoder rows, adds the two over (t, u), takes tanh, flattens (t, u) to 2048 rows,
  multiplies by the transposed output matrix and adds the output bias as a row broadcast. The change of float
  format before the last product is the identity on the extended reals. Stage by stage, at an entry:
    encoder projection (t, j)  =  sum over d of enc (0, t, 0, d) * We (j, d)  +  be j
    decoder projection (u, j)  =  sum over d of dec (0, 0, u, d) * Wd (j, d)
    hidden (t, u, j)           =  tanh (encoder projection (t, j) + decoder projection (u, j))
    stored (0, t, u, v)        =  sum over j of hidden (t, u, j) * Wo (v, j)  +  bo v.
-/
import proofs.«145594_j37503654429039_1_alg».proof.Proof.Gen.KernelIdeal.Skeleton
import proofs.«145594_j37503654429039_1_alg».proof.Proof.KernelSums
import proofs.«145594_j37503654429039_1_alg».proof.Proof.LibRelayout
import proofs.«145594_j37503654429039_1_alg».proof.Proof.JointEntry

noncomputable section

namespace Cert.KernelIdeal.JointValue

open Cert.KernelIdeal Cert.KernelIdeal.Gen Idealize.ShloMosaic Idealize.ShloMosaic.ValueIdx Cert.LibRelayout

/-- The encoder projection with its bias, at row `t` and output feature `j`. -/
theorem encProj_apply (x0 : Vec Ideal S1x32x1x512 .f32) (x2 : Vec Ideal S512x512 .f32) (x3 : Vec Ideal S512 .f32)
    (h1 : S1x32x1x512.ShapeCasts S32x512) (h2 : S512x512.Transposes [1, 0] S512x512) (h3 : S512.ShapeCasts S1x512)
    (h4 : S1x512.Broadcasts S32x512) (t : Fin 32) (j : Fin 512) :
    addf (F := Ideal) (matmul (φ₁ := .f32) (φ₂ := .f32) dot_S32x512_S512x512_S32x512_1_0_0_1_n_n none (shapeCast S32x512 x0 h1) (transpose S512x512 [1, 0] x2 h2)
        (constant S32x512 .f32 0x00000000#32)) (broadcastTo S32x512 (shapeCast S1x512 x3 h3) h4) (ix2 t j)
      = (∑ d : Fin 512, x0 (ix4 (0 : Fin 1) t (0 : Fin 1) d) * x2 (ix2 j d)) + x3 (ix1 j) := by
  refine (addf_apply _ _ _).trans ?_
  rw [encDot_apply, broadcastTo_1b_ab_apply, shapeCast_a_1a_apply]
  refine congrArg (· + x3 (ix1 j)) (Finset.sum_congr rfl fun d _ => ?_)
  rw [transpose_ix2_apply, shapeCast_1a1b_ab_apply]

/-- The decoder projection, at row `u` and output feature `j`. -/
theorem decProj_apply (x1 : Vec Ideal S1x1x64x512 .f32) (x4 : Vec Ideal S512x512 .f32)
    (h1 : S1x1x64x512.ShapeCasts S64x512) (h2 : S512x512.Transposes [1, 0] S512x512) (u : Fin 64) (j : Fin 512) :
    matmul (F := Ideal) (φ₁ := .f32) (φ₂ := .f32) dot_S64x512_S512x512_S64x512_1_0_0_1_n_n none (shapeCast S64x512 x1 h1) (transpose S512x512 [1, 0] x4 h2)
        (constant S64x512 .f32 0x00000000#32) (ix2 u j)
      = ∑ d : Fin 512, x1 (ix4 (0 : Fin 1) (0 : Fin 1) u d) * x4 (ix2 j d) := by
  rw [decDot_apply]
  refine Finset.sum_congr rfl fun d _ => ?_
  rw [transpose_ix2_apply, shapeCast_11ab_ab_apply]

/-- The hidden layer at `(t, u, j)`: tanh of the sum of the two projections, each broadcast along the other's rows. -/
theorem hidden_apply (A : FVec Ideal S32x512 .f32) (B : FVec Ideal S64x512 .f32)
    (h1 : S32x512.ShapeCasts S32x1x512) (h2 : S64x512.ShapeCasts S1x64x512) (h3 : S32x1x512.Broadcasts S32x64x512)
    (h4 : S1x64x512.Broadcasts S32x64x512) (t : Fin 32) (u : Fin 64) (j : Fin 512) :
    tanh (addf (broadcastTo S32x64x512 (shapeCast S32x1x512 A h1) h3) (broadcastTo S32x64x512 (shapeCast S1x64x512 B h2) h4)) (ix3 t u j)
      = Ideal.tanh (A (ix2 t j) + B (ix2 u j)) := by
  show Ideal.tanh (broadcastTo S32x64x512 (shapeCast S32x1x512 A h1) h3 (ix3 t u j)
      + broadcastTo S32x64x512 (shapeCast S1x64x512 B h2) h4 (ix3 t u j)) = _
  rw [broadcastTo_a1c_abc_apply, broadcastTo_1bc_abc_apply, shapeCast_ab_a1b_apply, shapeCast_ab_1ab_apply]

/-- The stored value at `(z, t, u, v)` from the hidden layer `H`: the output product over the flattened rows
    `t * 64 + u`, plus the output bias. -/
theorem out_apply (H : FVec Ideal S32x64x512 .f32) (x5 : Vec Ideal S1024x512 .f32) (x6 : Vec Ideal S1024 .f32)
    (hb : FTy.bf16.bits < FTy.f32.bits) (hb' : FTy.bf16.bits < FTy.f32.bits)
    (h1 : S32x64x512.ShapeCasts S2048x512) (h2 : S1024x512.Transposes [1, 0] S512x1024) (h3 : S1024.ShapeCasts S1x1024)
    (h4 : S1x1024.Broadcasts S2048x1024) (h5 : S2048x1024.ShapeCasts S32x64x1024) (h6 : S32x64x1024.ShapeCasts S1x32x64x1024)
    (z : Fin 1) (t : Fin 32) (u : Fin 64) (v : Fin 1024) :
    shapeCast S1x32x64x1024 (shapeCast S32x64x1024 (addf (matmul dot_S2048x512_S512x1024_S2048x1024_1_0_0_1_n_n none
        (shapeCast S2048x512 (truncf .bf16 H hb) h1) (transpose S512x1024 [1, 0] (truncf .bf16 x5 hb') h2)
        (constant S2048x1024 .f32 0x00000000#32)) (broadcastTo S2048x1024 (shapeCast S1x1024 x6 h3) h4)) h5) h6 (ix4 z t u v)
      = (∑ j : Fin 512, H (ix3 t u j) * x5 (ix2 v j)) + x6 (ix1 v) := by
  have hr : t.val * 64 + u.val < 2048 := by have := t.isLt; have := u.isLt; omega
  rw [shapeCast_abc_1abc_apply, shapeCast_nc_abc_apply _ _ t u v ⟨t.val * 64 + u.val, hr⟩ rfl]
  refine (addf_apply _ _ _).trans ?_
  rw [outDot_apply, broadcastTo_1b_ab_apply, shapeCast_a_1a_apply]
  refine congrArg (· + x6 (ix1 v)) (Finset.sum_congr rfl fun j _ => ?_)
  rw [transpose_ix2_apply, shapeCast_abc_nc_apply _ _ t u j ⟨t.val * 64 + u.val, hr⟩ rfl]
  rfl

/-- THE BODY'S STORED VALUE at `(z, t, u, v)` is the joint network's entry for row `t` of the encoder block, row
    `u` of the decoder block and row `v` of the output matrix. -/
theorem payload_entry (x0 : Vec Ideal S1x32x1x512 .f32) (x1 : Vec Ideal S1x1x64x512 .f32) (x2 : Vec Ideal S512x512 .f32)
    (x3 : Vec Ideal S512 .f32) (x4 : Vec Ideal S512x512 .f32) (x5 : Vec Ideal S1024x512 .f32) (x6 : Vec Ideal S1024 .f32)
    (z : Fin 1) (t : Fin 32) (u : Fin 64) (v : Fin 1024) :
    k0_pay1 (F := Ideal) x0 x1 x2 x3 x4 x5 x6 (ix4 z t u v)
      = Cert.Joint.entry (fun d => x0 (ix4 (0 : Fin 1) t (0 : Fin 1) d)) (fun d => x1 (ix4 (0 : Fin 1) (0 : Fin 1) u d))
          (fun j d => x2 (ix2 j d)) (fun j => x3 (ix1 j)) (fun j d => x4 (ix2 j d)) (fun j => x5 (ix2 v j)) (x6 (ix1 v)) := by
  unfold k0_pay1
  refine (out_apply _ x5 x6 _ _ _ _ _ _ _ _ z t u v).trans ?_
  unfold Cert.Joint.entry
  refine congrArg (· + x6 (ix1 v)) (Finset.sum_congr rfl fun j _ => ?_)
  refine congrArg (· * x5 (ix2 v j)) ?_
  refine (hidden_apply _ _ _ _ _ _ t u j).trans ?_
  refine congrArg Ideal.tanh ?_
  refine congrArg₂ (· + ·) (encProj_apply x0 x2 x3 _ _ _ _ t j) (decProj_apply x1 x4 _ _ u j)

end Cert.KernelIdeal.JointValue

end
-- ==== Proof.BlocksToArray.lean ====
/-
  From blocks to the whole result array.

  The grid has 4 x 8 points (b, s). At point (b, s) the body sees rows 32 s .. 32 s + 31 of batch b of the encoder
  output, all 64 rows of batch b of the decoder output, the three matrices and the two biases whole, and writes
  block (b, s) of the result: rows 32 s .. 32 s + 31 of batch b, every u and every v. So entry (0, t, u, v) of what
  point (b, s) writes back is the joint network's entry for encoder row (b, 32 s + t), decoder row (b, u) and
  output row v — the result array's entry (b, 32 s + t, u, v). The blocks tile the array (row T of batch b lies in
  the block of point (b, T / 32)), so after the run the array is `Cert.Joint.array` of the argument arrays.
-/
import proofs.«145594_j37503654429039_1_alg».proof.Proof.Gen.KernelIdeal.Value
import proofs.«145594_j37503654429039_1_alg».proof.Proof.PayloadEntry

noncomputable section

namespace Cert.KernelIdeal.JointValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros4 : (![0, 0, 0, 0] : Fin 4 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- Where each window's block sits, decided over the 32 grid points: the encoder block moves with the result's
    block on the batch and row axes, the decoder block on the batch axis alone, every other input is whole (block
    index 0), and the result's block index is (b, s, 0, 0) with b below 4 and s below 8. -/
theorem block_places : ∀ t : Fin cfg0.N,
    win0_0.index t (0 : Fin 4) = win0_7.index t (0 : Fin 4) ∧ win0_0.index t (1 : Fin 4) = win0_7.index t (1 : Fin 4)
    ∧ win0_0.index t (2 : Fin 4) = 0 ∧ win0_0.index t (3 : Fin 4) = 0
    ∧ win0_1.index t (0 : Fin 4) = win0_7.index t (0 : Fin 4) ∧ win0_1.index t (1 : Fin 4) = 0
    ∧ win0_1.index t (2 : Fin 4) = 0 ∧ win0_1.index t (3 : Fin 4) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (2 : Fin 4) = 0 ∧ win0_7.index t (3 : Fin 4) = 0
    ∧ win0_7.index t (0 : Fin 4) ≤ 3 ∧ win0_7.index t (1 : Fin 4) ≤ 7 :=
  (by decide +kernel : ∀ t : Fin grid0.N, _)

/-- Every block index (b, s, 0, 0) of the result is some grid point's. -/
theorem block_onto : ∀ (q0 : Fin 4) (q1 : Fin 8), ∃ t : Fin cfg0.N, win0_7.index t = ![q0.val, q1.val, 0, 0] :=
  (by decide +kernel : ∀ (q0 : Fin 4) (q1 : Fin 8), ∃ t : Fin grid0.N, win0_7.index t = ![q0.val, q1.val, 0, 0])

/-- If the seven blocks hold, where the body reads them, the rows of seven arrays that entry `i` of the joint
    network's array is made of, then what the body stores at `y` is that entry. -/
theorem stored_eq_array_entry (x0 : Vec Ideal S1x32x1x512 .f32) (x1 : Vec Ideal S1x1x64x512 .f32) (x2 : Vec Ideal S512x512 .f32)
    (x3 : Vec Ideal S512 .f32) (x4 : Vec Ideal S512x512 .f32) (x5 : Vec Ideal S1024x512 .f32) (x6 : Vec Ideal S1024 .f32)
    (a0 : Vec Ideal S4x256x1x512 .f32) (a1 : Vec Ideal S4x1x64x512 .f32) (a2 : Vec Ideal S512x512 .f32)
    (a3 : Vec Ideal S512 .f32) (a4 : Vec Ideal S512x512 .f32) (a5 : Vec Ideal S1024x512 .f32) (a6 : Vec Ideal S1024 .f32)
    (y : S1x32x64x1024.Idx) (i : S4x256x64x1024.Idx)
    (hEnc : ∀ d : Fin 512, x0 (ix4 (0 : Fin 1) (y 1) (0 : Fin 1) d) = a0 (ix4 (i 0) (i 1) (0 : Fin 1) d))
    (hDec : ∀ d : Fin 512, x1 (ix4 (0 : Fin 1) (0 : Fin 1) (y 2) d) = a1 (ix4 (i 0) (0 : Fin 1) (i 2) d))
    (hWe : ∀ j d : Fin 512, x2 (ix2 j d) = a2 (ix2 j d)) (hbe : ∀ j : Fin 512, x3 (ix1 j) = a3 (ix1 j))
    (hWd : ∀ j d : Fin 512, x4 (ix2 j d) = a4 (ix2 j d))
    (hWo : ∀ j : Fin 512, x5 (ix2 (y 3) j) = a5 (ix2 (i 3) j)) (hbo : x6 (ix1 (y 3)) = a6 (ix1 (i 3))) :
    k0_pay1 (F := Ideal) x0 x1 x2 x3 x4 x5 x6 y = Cert.Joint.array a0 a1 a2 a3 a4 a5 a6 i := by
  refine (congrArg (k0_pay1 (F := Ideal) x0 x1 x2 x3 x4 x5 x6) (eq_ix4 y)).trans ?_
  refine (payload_entry x0 x1 x2 x3 x4 x5 x6 (y 0) (y 1) (y 2) (y 3)).trans ?_
  unfold Cert.Joint.array
  simp only [hEnc, hDec, hWe, hbe, hWd, hWo, hbo]

/-- WHAT POINT `t` WRITES BACK is block `t` of the joint network's array of the argument arrays. -/
theorem flushed_eq (c : Dev nD) (t : Fin cfg0.N) :
    (dats m 0 c).flushed 7 t = ((cfg0.win 7).blk t).view.read (Elt Ideal)
      (Cert.Joint.array (V m c main_arg0) (V m c main_arg1) (V m c main_arg2) (V m c main_arg3) (V m c main_arg4)
        (V m c main_arg5) (V m c main_arg6)) := by
  rw [Cert.KernelIdeal.Value.flushed7]
  unfold out0_7
  rw [View.canon_unit_zero zeros4]
  simp only [View.ld_unit_zero (S := S1x32x1x512) zeros4, View.ld_unit_zero (S := S1x1x64x512) zeros4,
    View.ld_unit_zero (S := S512x512) zeros2, View.ld_unit_zero (S := S512) zeros1,
    View.ld_unit_zero (S := S1024x512) zeros2, View.ld_unit_zero (S := S1024) zeros1]
  obtain ⟨e00, e01, e02, e03, e10, e11, e12, e13, e20, e21, e30, e40, e41, e50, e51, e60, e72, e73, b7, s7⟩ := block_places t
  funext y
  show k0_pay1 (F := Ideal) (iblk m c 0 t) (iblk m c 1 t) (iblk m c 2 t) (iblk m c 3 t) (iblk m c 4 t) (iblk m c 5 t) (iblk m c 6 t) y
    = Cert.Joint.array (V m c main_arg0) (V m c main_arg1) (V m c main_arg2) (V m c main_arg3) (V m c main_arg4)
        (V m c main_arg5) (V m c main_arg6) (((cfg0.win 7).blk t).view.emb y)
  have hy0 : (y 0).val < 1 := (y 0).isLt
  have hy1 : (y 1).val < 32 := (y 1).isLt
  have hy2 : (y 2).val < 64 := (y 2).isLt
  have hy3 : (y 3).val < 1024 := (y 3).isLt
  refine stored_eq_array_entry (iblk m c 0 t) (iblk m c 1 t) (iblk m c 2 t) (iblk m c 3 t) (iblk m c 4 t) (iblk m c 5 t) (iblk m c 6 t)
    (V m c main_arg0) (V m c main_arg1) (V m c main_arg2) (V m c main_arg3) (V m c main_arg4) (V m c main_arg5) (V m c main_arg6)
    y (((cfg0.win 7).blk t).view.emb y) ?_ ?_ ?_ ?_ ?_ ?_ ?_
  · intro d
    have hd : d.val < 512 := d.isLt
    show V m c main_arg0 (((cfg0.win 0).blk t).view.emb (ix4 (0 : Fin 1) (y 1) (0 : Fin 1) d)) = _
    refine congrArg (V m c main_arg0) (funext fun a => Fin.ext ?_)
    match a with
    | ⟨0, _⟩ => show win0_0.index t (0 : Fin 4) * 1 + 1 * 0 = win0_7.index t (0 : Fin 4) * 1 + 1 * (y 0).val; omega
    | ⟨1, _⟩ => show win0_0.index t (1 : Fin 4) * 32 + 1 * (y 1).val = win0_7.index t (1 : Fin 4) * 32 + 1 * (y 1).val; omega
    | ⟨2, _⟩ => show win0_0.index t (2 : Fin 4) * 1 + 1 * 0 = 0; omega
    | ⟨3, _⟩ => show win0_0.index t (3 : Fin 4) * 512 + 1 * d.val = d.val; omega
  · intro d
    have hd : d.val < 512 := d.isLt
    show V m c main_arg1 (((cfg0.win 1).blk t).view.emb (ix4 (0 : Fin 1) (0 : Fin 1) (y 2) d)) = _
    refine congrArg (V m c main_arg1) (funext fun a => Fin.ext ?_)
    match a with
    | ⟨0, _⟩ => show win0_1.index t (0 : Fin 4) * 1 + 1 * 0 = win0_7.index t (0 : Fin 4) * 1 + 1 * (y 0).val; omega
    | ⟨1, _⟩ => show win0_1.index t (1 : Fin 4) * 1 + 1 * 0 = 0; omega
    | ⟨2, _⟩ => show win0_1.index t (2 : Fin 4) * 64 + 1 * (y 2).val = win0_7.index t (2 : Fin 4) * 64 + 1 * (y 2).val; omega
    | ⟨3, _⟩ => show win0_1.index t (3 : Fin 4) * 512 + 1 * d.val = d.val; omega
  · intro j d
    have hj : j.val < 512 := j.isLt
    have hd : d.val < 512 := d.isLt
    show V m c main_arg2 (((cfg0.win 2).blk t).view.emb (ix2 j d)) = _
    refine congrArg (V m c main_arg2) (funext fun a => Fin.ext ?_)
    match a with
    | ⟨0, _⟩ => show win0_2.index t (0 : Fin 2) * 512 + 1 * j.val = j.val; omega
    | ⟨1, _⟩ => show win0_2.index t (1 : Fin 2) * 512 + 1 * d.val = d.val; omega
  · intro j
    have hj : j.val < 512 := j.isLt
    show V m c main_arg3 (((cfg0.win 3).blk t).view.emb (ix1 j)) = _
    refine congrArg (V m c main_arg3) (funext fun a => Fin.ext ?_)
    match a with
    | ⟨0, _⟩ => show win0_3.index t (0 : Fin 1) * 512 + 1 * j.val = j.val; omega
  · intro j d
    have hj : j.val < 512 := j.isLt
    have hd : d.val < 512 := d.isLt
    show V m c main_arg4 (((cfg0.win 4).blk t).view.emb (ix2 j d)) = _
    refine congrArg (V m c main_arg4) (funext fun a => Fin.ext ?_)
    match a with
    | ⟨0, _⟩ => show win0_4.index t (0 : Fin 2) * 512 + 1 * j.val = j.val; omega
    | ⟨1, _⟩ => show win0_4.index t (1 : Fin 2) * 512 + 1 * d.val = d.val; omega
  · intro j
    have hj : j.val < 512 := j.isLt
    show V m c main_arg5 (((cfg0.win 5).blk t).view.emb (ix2 (y 3) j)) = _
    refine congrArg (V m c main_arg5) (funext fun a => Fin.ext ?_)
    match a with
    | ⟨0, _⟩ => show win0_5.index t (0 : Fin 2) * 1024 + 1 * (y 3).val = win0_7.index t (3 : Fin 4) * 1024 + 1 * (y 3).val; omega
    | ⟨1, _⟩ => show win0_5.index t (1 : Fin 2) * 512 + 1 * j.val = j.val; omega
  · show V m c main_arg6 (((cfg0.win 6).blk t).view.emb (ix1 (y 3))) = _
    refine congrArg (V m c main_arg6) (funext fun a => Fin.ext ?_)
    match a with
    | ⟨0, _⟩ => show win0_6.index t (0 : Fin 1) * 1024 + 1 * (y 3).val = win0_7.index t (3 : Fin 4) * 1024 + 1 * (y 3).val; omega

/-- An index of the result is in point `t`'s block iff each coordinate is in the block's range on its axis. -/
theorem mem_block (t : Fin cfg0.N) (i : S4x256x64x1024.Idx) :
    i ∈ ((cfg0.win 7).blk t).view.set ↔ ∀ a : Fin 4, win0_7.index t a * S1x32x64x1024.size a ≤ (i a).val
      ∧ (i a).val < win0_7.index t a * S1x32x64x1024.size a + S1x32x64x1024.size a := by
  show i ∈ ((View.whole main_v0).slice (win0_7.rect t)).set ↔ _
  rw [View.set_slice_whole, Rect.mem_set_unit]
  exact Iff.rfl

/-- The blocks tile the result: entry (b, T, u, v) is in the block of the point with block index (b, T / 32, 0, 0). -/
theorem covered (i : S4x256x64x1024.Idx) :
    ∃ t : Fin cfg0.N, (cfg0.win 7).flush t = true ∧ i ∈ ((cfg0.win 7).blk t).view.set := by
  have hi0 : (i 0).val < 4 := (i 0).isLt
  have hi1 : (i 1).val < 256 := (i 1).isLt
  have hi2 : (i 2).val < 64 := (i 2).isLt
  have hi3 : (i 3).val < 1024 := (i 3).isLt
  obtain ⟨t, ht⟩ := block_onto ⟨(i 0).val, hi0⟩ ⟨(i 1).val / 32, by omega⟩
  have q0 : win0_7.index t (0 : Fin 4) = (i 0).val := congrFun ht 0
  have q1 : win0_7.index t (1 : Fin 4) = (i 1).val / 32 := congrFun ht 1
  have q2 : win0_7.index t (2 : Fin 4) = 0 := congrFun ht 2
  have q3 : win0_7.index t (3 : Fin 4) = 0 := congrFun ht 3
  refine ⟨t, flush0_7 t, ?_⟩
  rw [mem_block]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 32 ≤ (i 1).val ∧ (i 1).val < win0_7.index t (1 : Fin 4) * 32 + 32; omega
  | ⟨2, _⟩ => show win0_7.index t (2 : Fin 4) * 64 ≤ (i 2).val ∧ (i 2).val < win0_7.index t (2 : Fin 4) * 64 + 64; omega
  | ⟨3, _⟩ => show win0_7.index t (3 : Fin 4) * 1024 ≤ (i 3).val ∧ (i 3).val < win0_7.index t (3 : Fin 4) * 1024 + 1024; omega

/-- THE RESULT ARRAY after the run is the joint network's array of the argument arrays. -/
theorem final (c : Dev nD) : (dats m 0 c).arrAt 7 cfg0.N
    = Cert.Joint.array (V m c main_arg0) (V m c main_arg1) (V m c main_arg2) (V m c main_arg3) (V m c main_arg4)
        (V m c main_arg5) (V m c main_arg6) :=
  (dats m 0 c).arrAt_eq_of_cover 7 _ (fun t _ => flushed_eq m c t) covered

/-- The kernel's run: the result ends at the joint network's array of the arguments, the arguments unchanged. -/
theorem run : θ_run defs (onTc (τ := τ) (main (F := Ideal))) ⟨m, fun _ => 0, ρ⟩ fun r => ∀ c : Dev nD,
      r.2.mem ((c : Thread nD τ).loc main_v0) = Cert.Joint.array (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.JointValue

end
-- ==== Proof.lean ====
/-
  The kernel-equivalence certificate of the joint network: two small projections, a broadcast sum, tanh and one
  large output product, (B, T, U, V) = (4, 256, 64, 1024).

  Both programs compute, at entry (b, t, u, v),
      sum over j of  tanh ((sum over d of enc (b, t, 0, d) * We (j, d)) + be j + (sum over d of dec (b, 0, u, d) * Wd (j, d)))
                      * Wo (v, j),   plus bo v,
  each contraction a sum over the 512 features. The kernel does it block by block over a 4 x 8 grid — 32 encoder rows
  against all 64 decoder rows of one batch at a time, the (t, u) pairs flattened to 2048 rows for the output product,
  its operands passed through a narrower float format, which is the identity on the extended reals — and the
  reference stage by stage on whole arrays. The terms and their order agree, so no algebraic law is needed and the
  finiteness of the inputs is never used: `Cert.Joint.array` (Proof/JointEntry.lean) is the common value, the
  reference's last stage is it (Proof/ReferenceValue.lean), each grid point stores its block of it
  (Proof/PayloadEntry.lean), and the blocks tile the result (Proof/BlocksToArray.lean).

  The three frames: each kernel program runs, without a fault, and leaves its arguments unchanged; the reference,
  which launches no kernel, likewise, read off its run. The idealized kernel is the kernel's own text read over the
  extended reals: nothing was rewritten, so there is nothing to preserve.
-/
import proofs.«145594_j37503654429039_1_alg».proof.Defs
import proofs.«145594_j37503654429039_1_alg».proof.Proof.Gen.Kernel
import proofs.«145594_j37503654429039_1_alg».proof.Proof.Gen.Kernel.Skeleton
import proofs.«145594_j37503654429039_1_alg».proof.Proof.Gen.Kernel.Launch
import proofs.«145594_j37503654429039_1_alg».proof.Proof.Gen.Kernel.Points
import proofs.«145594_j37503654429039_1_alg».proof.Proof.Gen.Kernel.Frame
import proofs.«145594_j37503654429039_1_alg».proof.Proof.Gen.KernelIdeal
import proofs.«145594_j37503654429039_1_alg».proof.Proof.Gen.KernelIdeal.Skeleton
import proofs.«145594_j37503654429039_1_alg».proof.Proof.Gen.KernelIdeal.Launch
import proofs.«145594_j37503654429039_1_alg».proof.Proof.Gen.KernelIdeal.Points
import proofs.«145594_j37503654429039_1_alg».proof.Proof.Gen.KernelIdeal.Frame
import proofs.«145594_j37503654429039_1_alg».proof.Proof.Gen.ReferenceIdeal
import proofs.«145594_j37503654429039_1_alg».proof.Proof.Gen.KernelIdeal.Value
import proofs.«145594_j37503654429039_1_alg».proof.Proof.Gen.ReferenceIdeal.Run
import proofs.«145594_j37503654429039_1_alg».proof.Proof.Gen.ReferenceIdeal.Read
import proofs.«145594_j37503654429039_1_alg».proof.Proof.Gen.Pre_finite_inputs
import proofs.«145594_j37503654429039_1_alg».proof.Proof.ReferenceValue
import proofs.«145594_j37503654429039_1_alg».proof.Proof.BlocksToArray
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read over the extended reals. -/
theorem preserves : Cert.preserves_Kernel_KernelIdeal := trivial

/-- From memories that agree on the seven arguments, the kernel's result array and the reference's both end at the
    joint network's array of those arguments. -/
theorem algebraic : Cert.algebraic_KernelIdeal_ReferenceIdeal := by
  intro m ρ m' ρ' _ hagree
  refine ⟨_, Cert.KernelIdeal.JointValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.JointValue.stage_eq_array,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
